-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S1024x64 : Shape := ⟨2, ![1024, 64]⟩
abbrev S1024x256 : Shape := ⟨2, ![1024, 256]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S65536x64 .f32) (main_arg1 : FVec F S1024x64 .f32) (main_arg2 : FVec F S1024x256 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  main_v13
-- ==== Kernel.lean ====
abbrev S65536x64 : Shape := ⟨2, ![65536, 64]⟩
abbrev S1024x64 : Shape := ⟨2, ![1024, 64]⟩
abbrev S1024x256 : Shape := ⟨2, ![1024, 256]⟩
abbrev S65536x256 : Shape := ⟨2, ![65536, 256]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S65536x64, .f32⟩
  | .hbm, ⟨1, _⟩ => ⟨S1024x64, .f32⟩
  | .hbm, ⟨2, _⟩ => ⟨S1024x256, .f32⟩
  | .hbm, ⟨3, _⟩ => ⟨S65536x256, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1024x64_S1024x64_0_0 : ∀ a, (![0, 0] : Fin 2 → Nat) a + S1024x64.size a ≤ S1024x64.size a
  h_S1024x64 : 0 < S1024x64.numel
  inb_S1024x256_S1024x256_0_0 : ∀ a, (![0, 0] : Fin 2 → Nat) a + S1024x256.size a ≤ S1024x256.size a
  h_S1024x256 : 0 < S1024x256.numel
  reduces_S1024x64_S1024 : S1024x64.Reduces [1] S1024
  shapeCasts_S1024_S1024x1 : S1024.ShapeCasts S1024x1
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  dot_S1024x64_S1024x64_S1024x1024_1_1_0_0_n_n_wf : DotDims.WF S1024x64 S1024x64 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S65536x64.size a
  hwx0_0 : ∀ i : grid0.Coords, EltTy.bits .f32 = 32 ∨ (Rect.block (s := S65536x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S65536x256.size a
  hwx0_3 : ∀ i : grid0.Coords, EltTy.bits .f32 = 32 ∨ (Rect.block (s := S65536x256) S1024x256.size (cc0_transform_3 i) (hinb0_3 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x64 : Shape := ⟨2, ![65536, 64]⟩
abbrev S1024x64 : Shape := ⟨2, ![1024, 64]⟩
abbrev S1024x256 : Shape := ⟨2, ![1024, 256]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S65536x1024 : Shape := ⟨2, ![65536, 1024]⟩
abbrev S64x1024 : Shape := ⟨2, ![64, 1024]⟩
abbrev S65536x256 : Shape := ⟨2, ![65536, 256]⟩

abbrev nBuf : Space → Nat
  | .hbm => 28
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S1024x64, .f32⟩
  | .hbm, ⟨2, _⟩ => ⟨S1024x256, .f32⟩
  | .hbm, ⟨3, _⟩ => ⟨S65536x64, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S64x1024, .f32⟩
  | .hbm, ⟨15, _⟩ => ⟨S65536x1024, .f32⟩
  | .hbm, ⟨16, _⟩ => ⟨S_, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S65536x256, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S1024x64_S1024_d1 : S1024x64.ReducesTo [1] S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  transposes_S1024x64_S64x1024_1_0 : S1024x64.Transposes [1, 0] S64x1024
  bcast_S_S65536x1024 : S_.BroadcastsInDim S65536x1024 (![] : Fin 0 → Fin S65536x1024.rank)
  dot_S65536x64_S64x1024_S65536x1024_1_0_0_1_n_n_wf : DotDims.WF S65536x64 S64x1024 S65536x1024 [1] [0] [0] [1] [] []
  dot_S65536x1024_S1024x256_S65536x256_1_0_0_1_n_n_wf : DotDims.WF S65536x1024 S1024x256 S65536x256 [1] [0] [0] [1] [] []

variable [Facts₀]

def dot_S65536x64_S64x1024_S65536x1024_1_0_0_1_n_n : DotDims S65536x64 S64x1024 S65536x1024 where
  lhsContracting := [1]
  rhsContracting := [0]
  lhsNonContracting := [0]
  rhsNonContracting := [1]
  lhsBatch := []
  rhsBatch := []
  wf := dot_S65536x64_S64x1024_S65536x1024_1_0_0_1_n_n_wf
def dot_S65536x1024_S1024x256_S65536x256_1_0_0_1_n_n : DotDims S65536x1024 S1024x256 S65536x256 where
  lhsContracting := [1]
  rhsContracting := [0]
  lhsNonContracting := [0]
  rhsNonContracting := [1]
  lhsBatch := []
  rhsBatch := []
  wf := dot_S65536x1024_S1024x256_S65536x256_1_0_0_1_n_n_wf

class Facts : Prop extends Facts₀ where

variable [Facts]
-- ==== Proof.RbfSpec.lean ====
/-
  The radial-basis layer as ONE function of its three argument arrays, on the extended reals.

  For a row `u` of the input and a centre `v`, both of length 64, the clamped squared distance is
  `max (‖u‖² + ‖v‖² − 2·⟨u, v⟩) 0`, where `‖u‖² = Σ_d u_d · u_d` and `⟨u, v⟩ = Σ_d u_d · v_d`, and the basis value is
  `e^(−that)`. Entry `(r, o)` of the layer's result is `Σ_k basis (row r of x) (centre k) · w (k, o)` over the 1024
  centres. The factor 2 is kept as the word both programs spell; the zeros are the extended real `0`.

  Beside the function: the two layout readings a kept-dimension row sum needs (a length-`a` vector recast as an
  `[a, 1]` column, and such a column repeated along the columns), and the two ways of writing a negation the two
  programs use (`0 − v` and `(−1) · v`), which agree on every extended real, the infinities included.
-/
import Idealize.ShloMosaic.PureOps.Ideal
import Idealize.ShloMosaic.PureOps.Ideal.Laws
import Idealize.ShloMosaic.PureOps.IdealRules
import Idealize.ShloMosaic.Lib.ValueIdx
import Idealize.ShloMosaic.Lib.Pipeline.Value
import Idealize.ShloMosaic.Lib.ValueLayout

noncomputable section

open scoped BigOperators

namespace Cert.Rbf

open Idealize.ShloMosaic Idealize.ShloMosaic.ValueIdx

/-- The basis value of a row `u` against a centre `v`: `e^(−max (‖u‖² + ‖v‖² − 2·⟨u, v⟩) 0)`. -/
def basis (u v : Fin 64 → EReal) : EReal :=
  Ideal.exp (-(max (((∑ d : Fin 64, u d * u d) + (∑ d : Fin 64, v d * v d))
    - Ideal.ofBits .f32 0x40000000#32 * (∑ d : Fin 64, u d * v d)) 0))

/-- Entry `(r, o)` of the layer: the basis values of row `r` against every centre, weighted by column `o` of the weights. -/
def layerAt (x : (⟨2, ![65536, 64]⟩ : Shape).Idx → EReal) (c : (⟨2, ![1024, 64]⟩ : Shape).Idx → EReal)
    (w : (⟨2, ![1024, 256]⟩ : Shape).Idx → EReal) (r : Fin 65536) (o : Fin 256) : EReal :=
  ∑ k : Fin 1024, basis (fun d => x (ix2 r d)) (fun d => c (ix2 k d)) * w (ix2 k o)

/-- The layer's whole result array. -/
def layer (x : (⟨2, ![65536, 64]⟩ : Shape).Idx → EReal) (c : (⟨2, ![1024, 64]⟩ : Shape).Idx → EReal)
    (w : (⟨2, ![1024, 256]⟩ : Shape).Idx → EReal) : (⟨2, ![65536, 256]⟩ : Shape).Idx → EReal :=
  fun i => layerAt x c w (i 0) (i 1)

theorem layer_ix2 (x : (⟨2, ![65536, 64]⟩ : Shape).Idx → EReal) (c : (⟨2, ![1024, 64]⟩ : Shape).Idx → EReal)
    (w : (⟨2, ![1024, 256]⟩ : Shape).Idx → EReal) (r : Fin 65536) (o : Fin 256) :
    layer x c w (ix2 r o) = layerAt x c w r o := rfl

/-! ## Two spellings of a negation -/

/-- The word `-1.0` denotes the extended real `-1`. -/
theorem ofBits_negOne : Ideal.ofBits .f32 0xBF800000#32 = -1 := IdealRules.sign_bit.ideal_negOnePat .f32

/-- Subtracting from zero negates, at the infinities too. -/
theorem zero_sub_eq_neg (v : EReal) : (0 : EReal) - v = -v := zero_sub v

/-- Multiplying by `-1` negates, at the infinities too. -/
theorem negOne_mul_eq_neg (v : EReal) : (-1 : EReal) * v = -v := neg_one_mul v

/-! ## A kept-dimension column -/

variable {α : Type}

/-- A length-`a` vector recast as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the columns reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Rbf

end
-- ==== Proof.RbfRef.lean ====
/-
  The reference program computes the radial-basis layer.

  Its result is a matrix product of the basis matrix with the weights; the basis matrix is the exponential of
  `(−1)` times the clamped squared distances, and those are assembled from the row sums of squares of the input and
  of the centres (each repeated along the other axis) and twice the product of the input with the transposed centres.
  Read index by index, every operation passes to one entry of its operands, the two sums of squares start from the
  word zero, and the transposition only swaps the coordinates of the centre read: entry `(r, o)` is the layer's.
-/
import proofs.«137669_j39883066311174_1_alg».proof.Proof.Gen.ReferenceIdeal.Read
import proofs.«137669_j39883066311174_1_alg».proof.Proof.RbfSpec

noncomputable section

open scoped BigOperators

namespace Cert.Rbf.Ref

open Idealize.ShloMosaic Idealize.ShloMosaic.ValueIdx
open Cert.ReferenceIdeal Cert.ReferenceIdeal.Read

/-- Entry `(r, k)` of the reference's basis matrix is the basis value of row `r` of the input against centre `k`. -/
theorem basis_entry (x0 : (⟨S65536x64, .f32⟩ : BufTy).Contents (Elt Ideal)) (x1 : (⟨S1024x64, .f32⟩ : BufTy).Contents (Elt Ideal))
    (r : Fin 65536) (k : Fin 1024) :
    val_main_v18 (F := Ideal) x0 x1 (ix2 r k) = basis (fun d => x0 (ix2 r d)) (fun d => x1 (ix2 k d)) := by
  have e1 : ∀ d : Fin 64, idx_main_v1 (idx_main_v2 (idx_main_v6 (ix2 r k))) d = ix2 r d := fun d =>
    funext fun a => Fin.ext (by match a with | ⟨0, _⟩ => rfl | ⟨1, _⟩ => rfl)
  have e2 : ∀ d : Fin 64, idx_main_v4 (idx_main_v5 (idx_main_v7 (ix2 r k))) d = ix2 k d := fun d =>
    funext fun a => Fin.ext (by match a with | ⟨0, _⟩ => rfl | ⟨1, _⟩ => rfl)
  have e3 : ∀ d : Fin 64, lidx_main_v10 (ix2 r k) d = ix2 r d := fun d =>
    funext fun a => Fin.ext (by match a with | ⟨0, _⟩ => rfl | ⟨1, _⟩ => rfl)
  have e4 : ∀ d : Fin 64, idx_main_v9 (ridx_main_v10 (ix2 r k) d) = ix2 k d := fun d =>
    funext fun a => Fin.ext (by match a with | ⟨0, _⟩ => rfl | ⟨1, _⟩ => rfl)
  rw [val_main_v18_apply, val_main_v17_apply, val_main_v16_apply, val_main_cst_3_apply, val_main_v15_apply,
    val_main_v14_apply, val_main_cst_2_apply, val_main_v13_apply, val_main_v8_apply, val_main_v6_apply,
    val_main_v2_apply, val_main_v1_apply, val_main_cst_apply, val_main_v7_apply, val_main_v5_apply, val_main_v4_apply,
    val_main_cst_0_apply, val_main_v12_apply, val_main_v11_apply, val_main_cst_1_apply, val_main_v10_apply]
  simp only [val_main_v0_apply, val_main_v3_apply, val_main_v9_apply, e1, e2, e3, e4, Ideal.ofBits_def, Ideal.mulf_def,
    Ideal.addf_def, Ideal.subf_def, Ideal.maximumf_def, Ideal.hostUnary_exp_def, Ideal.ofBits_zero_f32, zero_add,
    ofBits_negOne, negOne_mul_eq_neg]
  rfl

/-- The reference's result array is the layer of its three arguments. -/
theorem result_eq (x0 : (⟨S65536x64, .f32⟩ : BufTy).Contents (Elt Ideal)) (x1 : (⟨S1024x64, .f32⟩ : BufTy).Contents (Elt Ideal))
    (x2 : (⟨S1024x256, .f32⟩ : BufTy).Contents (Elt Ideal)) :
    val_main_v19 (F := Ideal) x0 x1 x2 = layer x0 x1 x2 := by
  funext i
  obtain ⟨r, o, rfl⟩ : ∃ (r : Fin 65536) (o : Fin 256), i = ix2 r o := ⟨i 0, i 1, eq_ix2 i⟩
  rw [val_main_v19_apply, layer_ix2]
  unfold layerAt
  refine Finset.sum_congr rfl fun k _ => ?_
  have hl : lidx_main_v19 (ix2 r o) k = ix2 r k :=
    funext fun a => Fin.ext (by match a with | ⟨0, _⟩ => rfl | ⟨1, _⟩ => rfl)
  have hr : ridx_main_v19 (ix2 r o) k = ix2 k o :=
    funext fun a => Fin.ext (by match a with | ⟨0, _⟩ => rfl | ⟨1, _⟩ => rfl)
  rw [hl, hr, basis_entry]

end Cert.Rbf.Ref

end
-- ==== Proof.RbfBody.lean ====
/-
  One grid point's payload of the kernel, read at an index.

  The body loads a block of 1024 input rows, all 1024 centres and all the weights. It forms each loaded row's sum of
  squares as a column and each centre's as a row, repeats both over a 1024 × 1024 square, subtracts twice the
  product of the rows with the centres (both contracted along their 64 entries), clamps at zero, negates by
  subtracting from zero, exponentiates, and multiplies the resulting square with the weights. Entry `(p, q)` of what
  it stores is therefore `Σ_k basis (row p of the block) (centre k) · w (k, q)`: the two narrowings to sixteen bits are
  the identity on extended reals, and each matrix product into a zero accumulator is a plain sum over its one
  contracted coordinate.
-/
import proofs.«137669_j39883066311174_1_alg».proof.Proof.Gen.KernelIdeal.Skeleton
import proofs.«137669_j39883066311174_1_alg».proof.Proof.RbfSpec

noncomputable section

open scoped BigOperators

namespace Cert.Rbf.Body

open Idealize.ShloMosaic Idealize.ShloMosaic.ValueIdx
open Cert.KernelIdeal Cert.KernelIdeal.Gen

/-! ## The pieces that are not entry by entry -/

/-- A row's sum of squares: the lane reduction of `a · a` along the 64 entries, read at row `p`. -/
theorem rowSq_apply (a : FVec Ideal S1024x64 .f32) (h : S1024x64.Reduces [1] S1024) (hφ : FKind.Formats .f32)
    (hacc : (0x00000000#32 : BitVec 32) = FKind.add.neutral .f32 hφ) (p : Fin 1024) :
    multiReduction .add [1] S1024 (mulf a a) 0x00000000#32 h hφ hacc (ix1 p) = ∑ d : Fin 64, a (ix2 p d) * a (ix2 p d) := by
  refine (Ideal.multiReduction_add_single (mulf a a) 0x00000000#32 h hφ hacc (ix1 p)).trans ?_
  refine Finset.sum_congr rfl fun d _ => ?_
  have e : h.lift (ix1 p) d = ix2 p d := funext fun ax => Fin.ext (by match ax with | ⟨0, _⟩ => rfl | ⟨1, _⟩ => rfl)
  rw [e]
  rfl

/-- The sums of squares of the block's rows, kept as a column and repeated along the columns: entry `(p, k)` is row `p`'s. -/
theorem colSq_apply (a : FVec Ideal S1024x64 .f32) (h : S1024x64.Reduces [1] S1024) (hφ : FKind.Formats .f32)
    (hacc : (0x00000000#32 : BitVec 32) = FKind.add.neutral .f32 hφ) (hc : S1024.ShapeCasts S1024x1)
    (hb : S1024x1.Broadcasts S1024x1024) (p k : Fin 1024) :
    broadcastTo S1024x1024 (shapeCast S1024x1 (multiReduction .add [1] S1024 (mulf a a) 0x00000000#32 h hφ hacc) hc) hb (ix2 p k)
      = ∑ d : Fin 64, a (ix2 p d) * a (ix2 p d) :=
  (broadcastTo_a1_ab_apply _ hb p k).trans ((shapeCast_a_a1_apply _ hc p 0).trans (rowSq_apply a h hφ hacc p))

/-- The sums of squares of the centres, laid as one row and repeated down the rows: entry `(p, k)` is centre `k`'s. -/
theorem rowOfSq_apply (a : FVec Ideal S1024x64 .f32) (h : S1024x64.Reduces [1] S1024) (hφ : FKind.Formats .f32)
    (hacc : (0x00000000#32 : BitVec 32) = FKind.add.neutral .f32 hφ) (hc : S1024.ShapeCasts S1x1024)
    (hb : S1x1024.Broadcasts S1024x1024) (p k : Fin 1024) :
    broadcastTo S1024x1024 (shapeCast S1x1024 (multiReduction .add [1] S1024 (mulf a a) 0x00000000#32 h hφ hacc) hc) hb (ix2 p k)
      = ∑ d : Fin 64, a (ix2 k d) * a (ix2 k d) :=
  (broadcastTo_1b_ab_apply _ hb p k).trans ((shapeCast_a_1a_apply _ hc 0 k).trans (rowSq_apply a h hφ hacc k))

/-! ## The two matrix products -/

theorem cross_lhs0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl
theorem cross_lhs1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem cross_rhs0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl
theorem cross_rhs1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- Rows times centres, both contracted along their 64 entries, into a zero accumulator: entry `(p, k)` is `⟨row p, centre k⟩`. -/
theorem cross_apply (l r : FVec Ideal S1024x64 .bf16) (p k : Fin 1024) :
    matmul dot_S1024x64_S1024x64_S1024x1024_1_1_0_0_n_n none l r (constant S1024x1024 .f32 0x00000000#32) (ix2 p k)
      = ∑ d : Fin 64, l (ix2 p d) * r (ix2 k d) := by
  refine (Ideal.matmul_constant_zero_apply dot_S1024x64_S1024x64_S1024x1024_1_1_0_0_n_n none l r (ix2 p k)).trans ?_
  rw [← Equiv.sum_comp (contrEquiv1 dot_S1024x64_S1024x64_S1024x1024_1_1_0_0_n_n 64 rfl rfl).symm]
  refine Finset.sum_congr rfl fun d _ => ?_
  have hd := contrEquiv1_symm_val dot_S1024x64_S1024x64_S1024x1024_1_1_0_0_n_n 64 rfl rfl d
  have el : dot_S1024x64_S1024x64_S1024x1024_1_1_0_0_n_n.lhsIdx (ix2 p k)
      ((contrEquiv1 dot_S1024x64_S1024x64_S1024x1024_1_1_0_0_n_n 64 rfl rfl).symm d) = ix2 p d := funext fun a => Fin.ext (by
    match a with
    | ⟨0, _⟩ => exact cross_lhs0 _ _
    | ⟨1, _⟩ => exact (cross_lhs1 _ _).trans hd)
  have er : dot_S1024x64_S1024x64_S1024x1024_1_1_0_0_n_n.rhsIdx (ix2 p k)
      ((contrEquiv1 dot_S1024x64_S1024x64_S1024x1024_1_1_0_0_n_n 64 rfl rfl).symm d) = ix2 k d := funext fun a => Fin.ext (by
    match a with
    | ⟨0, _⟩ => exact cross_rhs0 _ _
    | ⟨1, _⟩ => exact (cross_rhs1 _ _).trans hd)
  rw [el, er]

theorem mix_lhs0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl
theorem mix_lhs1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem mix_rhs0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem mix_rhs1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- The basis square times the weights into a zero accumulator: entry `(p, q)` is `Σ_k l (p, k) · r (k, q)`. -/
theorem mix_apply (l : FVec Ideal S1024x1024 .bf16) (r : FVec Ideal S1024x256 .bf16) (p : Fin 1024) (q : Fin 256) :
    matmul dot_S1024x1024_S1024x256_S1024x256_1_0_0_1_n_n none l r (constant S1024x256 .f32 0x00000000#32) (ix2 p q)
      = ∑ k : Fin 1024, l (ix2 p k) * r (ix2 k q) := by
  refine (Ideal.matmul_constant_zero_apply dot_S1024x1024_S1024x256_S1024x256_1_0_0_1_n_n none l r (ix2 p q)).trans ?_
  rw [← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p q)
      ((contrEquiv1 dot_S1024x1024_S1024x256_S1024x256_1_0_0_1_n_n 1024 rfl rfl).symm k) = ix2 p k := funext fun a => Fin.ext (by
    match a with
    | ⟨0, _⟩ => exact mix_lhs0 _ _
    | ⟨1, _⟩ => exact (mix_lhs1 _ _).trans hk)
  have er : dot_S1024x1024_S1024x256_S1024x256_1_0_0_1_n_n.rhsIdx (ix2 p q)
      ((contrEquiv1 dot_S1024x1024_S1024x256_S1024x256_1_0_0_1_n_n 1024 rfl rfl).symm k) = ix2 k q := funext fun a => Fin.ext (by
    match a with
    | ⟨0, _⟩ => exact (mix_rhs0 _ _).trans hk
    | ⟨1, _⟩ => exact mix_rhs1 _ _)
  rw [el, er]

/-! ## The payload -/

/-- The scalar shape of one basis entry as the body spells it — zero minus the clamp of (column + row − 2 · cross) —
    is the basis value, once the three parts are known to be the two sums of squares and the inner product. -/
theorem basis_of_parts (a b g : EReal) (u v : Fin 64 → EReal) (ha : a = ∑ d : Fin 64, u d * u d)
    (hb : b = ∑ d : Fin 64, v d * v d) (hg : g = ∑ d : Fin 64, u d * v d) :
    Ideal.exp (Ideal.ofBits .f32 0x00000000#32
      - max ((a + b) - Ideal.ofBits .f32 0x40000000#32 * g) (Ideal.ofBits .f32 0x00000000#32)) = basis u v := by
  subst ha hb hg
  unfold basis
  rw [Ideal.ofBits_zero_f32, zero_sub_eq_neg]

/-- Entry `(p, q)` of what one grid point stores, from the block of rows `v0`, the centres `v1` and the weights `v2`. -/
theorem pay_apply (v0 : Vec Ideal S1024x64 .f32) (v1 : Vec Ideal S1024x64 .f32) (v2 : Vec Ideal S1024x256 .f32)
    (p : Fin 1024) (q : Fin 256) :
    k0_pay1 (F := Ideal) v0 v1 v2 (ix2 p q)
      = ∑ k : Fin 1024, basis (fun d => v0 (ix2 p d)) (fun d => v1 (ix2 k d)) * v2 (ix2 k q) := by
  unfold k0_pay1
  refine (mix_apply _ _ p q).trans ?_
  refine Finset.sum_congr rfl fun k _ => ?_
  refine congrArg₂ (· * ·) ?_ rfl
  exact basis_of_parts _ _ _ _ _ (colSq_apply v0 _ _ _ _ _ p k) (rowOfSq_apply v1 _ _ _ _ _ p k)
    (cross_apply _ _ p k)

end Cert.Rbf.Body

end
-- ==== Proof.RbfBlocks.lean ====
/-
  From the grid's blocks to the whole result array.

  The grid has 64 points. Point `t` reads rows `1024·t … 1024·t + 1023` of the input, all the centres and all the
  weights, and writes back rows `1024·t … 1024·t + 1023` of the result, every column. What it writes at `(p, q)` of its
  block is the layer's entry `(1024·t + p, q)`: the basis values depend only on row `1024·t + p` of the input and on
  the centres, and the weights are read whole. Row `r` of the result lies in the block of point `r / 1024`, so the 64
  blocks cover the array and it ends holding the layer of the three arguments.
-/
import proofs.«137669_j39883066311174_1_alg».proof.Proof.Gen.KernelIdeal.Value
import proofs.«137669_j39883066311174_1_alg».proof.Proof.RbfBody

set_option maxRecDepth 16384

noncomputable section

open scoped BigOperators

namespace Cert.Rbf.Blocks

open Cert.KernelIdeal Cert.KernelIdeal.Gen Idealize.ShloMosaic Idealize.ShloMosaic.TcCoe Idealize.SL.Sem
open Idealize.ShloMosaic.ValueIdx
open Idealize.ShloMosaic.Pipeline (Dat)

/-- One stored entry is one entry of the layer, as soon as the loaded block of rows is the rows around row `r` of the
    input and the other two loads are the centres and the weights themselves. -/
theorem pay_eq_layerAt (X : (⟨2, ![65536, 64]⟩ : Shape).Idx → EReal) (C : (⟨2, ![1024, 64]⟩ : Shape).Idx → EReal)
    (W : (⟨2, ![1024, 256]⟩ : Shape).Idx → EReal)
    (x0 : Vec Ideal S1024x64 .f32) (x1 : Vec Ideal S1024x64 .f32) (x2 : Vec Ideal S1024x256 .f32)
    (r : Fin 65536) (p : Fin 1024) (q : Fin 256)
    (h0 : ∀ d : Fin 64, x0 (ix2 p d) = X (ix2 r d)) (h1 : ∀ (k : Fin 1024) (d : Fin 64), x1 (ix2 k d) = C (ix2 k d))
    (h2 : ∀ k : Fin 1024, x2 (ix2 k q) = W (ix2 k q)) :
    k0_pay1 (F := Ideal) x0 x1 x2 (ix2 p q) = layerAt X C W r q := by
  rw [Body.pay_apply]
  unfold layerAt
  refine Finset.sum_congr rfl fun k _ => ?_
  rw [h2 k, funext h0, funext (h1 k)]

variable (m : (ℓ : Loc nD τ sig) → Buf (Elt Ideal) ℓ) (ρ : Dev nD → PrngReg)

theorem zero_off : (![0, 0] : Fin 2 → Nat) = fun _ => 0 := funext fun a => by fin_cases a <;> rfl

/-- The printed index maps, decided over the 64 points: the input rows and the result move together, block `t` along the
    rows; the centres and the weights stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the layer of the argument arrays. -/
theorem flushed_eq (c : Dev nD) (t : Fin cfg0.N) :
    (dats m 0 c).flushed 3 t
      = ((cfg0.win 3).blk t).view.read (Elt Ideal) (layer (V m c main_arg0) (V m c main_arg1) (V m c main_arg2)) := by
  rw [Cert.KernelIdeal.Value.flushed3]
  unfold out0_3
  rw [View.canon_unit_zero zero_off]
  simp only [View.ld_unit_zero (S := S1024x64) zero_off, View.ld_unit_zero (S := S1024x256) zero_off]
  obtain ⟨e0, e1, e2, e3, e4, e5, e6, e7⟩ := idx_facts t
  have ht : t.val < 64 := t.isLt
  funext j
  have hp : (j 0).val < 1024 := (j 0).isLt
  have hq : (j 1).val < 256 := (j 1).isLt
  have hx : (cfg0.win 3).xinj (grid0.coords t) j = ix2 (⟨(j 0).val, hp⟩ : Fin 1024) (⟨(j 1).val, hq⟩ : Fin 256) :=
    funext fun a => Fin.ext (by match a with | ⟨0, _⟩ => rfl | ⟨1, _⟩ => rfl)
  have hemb : ((cfg0.win 3).blk t).view.emb j
      = ix2 (⟨t.val * 1024 + (j 0).val, by omega⟩ : Fin 65536) (⟨(j 1).val, hq⟩ : Fin 256) :=
    funext fun a => Fin.ext (by
      match a with
      | ⟨0, _⟩ => show win0_3.index t (0 : Fin 2) * 1024 + 1 * (j 0).val = t.val * 1024 + (j 0).val; omega
      | ⟨1, _⟩ => show win0_3.index t (1 : Fin 2) * 256 + 1 * (j 1).val = (j 1).val; omega)
  show k0_pay1 (F := Ideal) (iblk m c 0 t) (iblk m c 1 t) (iblk m c 2 t) ((cfg0.win 3).xinj (grid0.coords t) j)
    = layer (V m c main_arg0) (V m c main_arg1) (V m c main_arg2) (((cfg0.win 3).blk t).view.emb j)
  rw [hx, hemb, layer_ix2]
  refine pay_eq_layerAt (V m c main_arg0) (V m c main_arg1) (V m c main_arg2) (iblk m c 0 t) (iblk m c 1 t) (iblk m c 2 t)
    ⟨t.val * 1024 + (j 0).val, by omega⟩ ⟨(j 0).val, hp⟩ ⟨(j 1).val, hq⟩ ?_ ?_ ?_
  · intro d
    show V m c main_arg0 (((cfg0.win 0).blk t).view.emb (ix2 (⟨(j 0).val, hp⟩ : Fin 1024) d)) = _
    refine congrArg (V m c main_arg0) (funext fun a => Fin.ext ?_)
    match a with
    | ⟨0, _⟩ => show win0_0.index t (0 : Fin 2) * 1024 + 1 * (j 0).val = t.val * 1024 + (j 0).val; omega
    | ⟨1, _⟩ => show win0_0.index t (1 : Fin 2) * 64 + 1 * d.val = d.val; omega
  · intro k d
    show V m c main_arg1 (((cfg0.win 1).blk t).view.emb (ix2 k d)) = _
    refine congrArg (V m c main_arg1) (funext fun a => Fin.ext ?_)
    match a with
    | ⟨0, _⟩ => show win0_1.index t (0 : Fin 2) * 1024 + 1 * k.val = k.val; omega
    | ⟨1, _⟩ => show win0_1.index t (1 : Fin 2) * 64 + 1 * d.val = d.val; omega
  · intro k
    show V m c main_arg2 (((cfg0.win 2).blk t).view.emb (ix2 k (⟨(j 1).val, hq⟩ : Fin 256))) = _
    refine congrArg (V m c main_arg2) (funext fun a => Fin.ext ?_)
    match a with
    | ⟨0, _⟩ => show win0_2.index t (0 : Fin 2) * 1024 + 1 * k.val = k.val; omega
    | ⟨1, _⟩ => show win0_2.index t (1 : Fin 2) * 256 + 1 * (j 1).val = (j 1).val; omega

/-- An index of the result is in point `t`'s block iff each coordinate is in the block's range on its axis. -/
theorem mem_blk (t : Fin cfg0.N) (i : S65536x256.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v0).slice (win0_3.rect t)).set ↔ _
  rw [View.set_slice_whole, Rect.mem_set_unit]
  exact Iff.rfl

/-- Every index of the result is in some point's block: row `r` in that of point `r / 1024`. -/
theorem cover (i : S65536x256.Idx) :
    ∃ t : Fin cfg0.N, (cfg0.win 3).flush t = true ∧ i ∈ ((cfg0.win 3).blk t).view.set := by
  have hi0 : (i 0).val < 65536 := (i 0).isLt
  have hi1 : (i 1).val < 256 := (i 1).isLt
  obtain ⟨t, ht⟩ : ∃ t : Fin cfg0.N, t.val = (i 0).val / 1024 :=
    ⟨⟨(i 0).val / 1024, by show (i 0).val / 1024 < 64; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 256 ≤ (i 1).val ∧ (i 1).val < win0_3.index t (1 : Fin 2) * 256 + 256
    omega

/-- THE RESULT ARRAY after the run is the layer of the three argument arrays. -/
theorem final (c : Dev nD) :
    (dats m 0 c).arrAt 3 cfg0.N = layer (m ((c : Thread nD τ).loc main_arg0)) (m ((c : Thread nD τ).loc main_arg1))
      (m ((c : Thread nD τ).loc main_arg2)) :=
  (dats m 0 c).arrAt_eq_of_cover 3 (layer (V m c main_arg0) (V m c main_arg1) (V m c main_arg2))
    (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = layer (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Rbf.Blocks

end
-- ==== Proof.lean ====
/-
  A radial-basis layer computed by a row-blocked kernel against its plain reference, equal on the extended reals.

  Both programs take an input `x` of 65536 rows of length 64, 1024 centres of length 64 and a 1024 × 256 weight matrix,
  and return, at `(r, o)`, `Σ_k e^(−max (‖x_r‖² + ‖c_k‖² − 2·⟨x_r, c_k⟩) 0) · w (k, o)` (Proof/RbfSpec.lean).
  The reference forms the whole 65536 × 1024 matrix of clamped squared distances from two row sums of squares and a
  product with the transposed centres, multiplies it by `−1`, exponentiates and multiplies by the weights
  (Proof/RbfRef.lean). The kernel does the same 1024 rows at a time, with the sums of squares kept as a column and a
  row, the centres contracted along their entries without a transposition, and the sign changed by subtracting from
  zero (Proof/RbfBody.lean); its 64 blocks of rows tile the result (Proof/RbfBlocks.lean). On the extended reals a
  narrowing of the float format is the identity, a matrix product into a zero accumulator and a host contraction are
  the same sum, and `0 − v = (−1)·v` for every `v`, infinite or not, so the two results agree entry by entry for
  all inputs: the finiteness of the inputs is not used. The kernel's idealization rewrote no operation, so there is
  nothing to preserve; each program's frame is its run with the result forgotten.
-/
import proofs.«137669_j39883066311174_1_alg».proof.Defs
import proofs.«137669_j39883066311174_1_alg».proof.Proof.Gen.Kernel
import proofs.«137669_j39883066311174_1_alg».proof.Proof.Gen.Kernel.Skeleton
import proofs.«137669_j39883066311174_1_alg».proof.Proof.Gen.Kernel.Launch
import proofs.«137669_j39883066311174_1_alg».proof.Proof.Gen.Kernel.Points
import proofs.«137669_j39883066311174_1_alg».proof.Proof.Gen.Kernel.Frame
import proofs.«137669_j39883066311174_1_alg».proof.Proof.Gen.KernelIdeal
import proofs.«137669_j39883066311174_1_alg».proof.Proof.Gen.KernelIdeal.Skeleton
import proofs.«137669_j39883066311174_1_alg».proof.Proof.Gen.KernelIdeal.Launch
import proofs.«137669_j39883066311174_1_alg».proof.Proof.Gen.KernelIdeal.Points
import proofs.«137669_j39883066311174_1_alg».proof.Proof.Gen.KernelIdeal.Frame
import proofs.«137669_j39883066311174_1_alg».proof.Proof.Gen.ReferenceIdeal
import proofs.«137669_j39883066311174_1_alg».proof.Proof.Gen.Pre_finite_inputs
import proofs.«137669_j39883066311174_1_alg».proof.Proof.Gen.KernelIdeal.Value
import proofs.«137669_j39883066311174_1_alg».proof.Proof.Gen.ReferenceIdeal.Run
import proofs.«137669_j39883066311174_1_alg».proof.Proof.Gen.ReferenceIdeal.Read
import proofs.«137669_j39883066311174_1_alg».proof.Proof.RbfRef
import proofs.«137669_j39883066311174_1_alg».proof.Proof.RbfBlocks
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer of their (agreeing) arguments in their result arrays. -/
theorem algebraic : Cert.algebraic_KernelIdeal_ReferenceIdeal := by
  intro m ρ m' ρ' _ hagree
  refine ⟨_, Cert.Rbf.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.Rbf.Ref.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
